-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096x1 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩
abbrev S1x4096 : Shape := ⟨2, ![1, 4096]⟩
abbrev S1024x256 : Shape := ⟨2, ![1024, 256]⟩
abbrev S2048x256 : Shape := ⟨2, ![2048, 256]⟩
abbrev S1x2048 : Shape := ⟨2, ![1, 2048]⟩
abbrev S1024x2048 : Shape := ⟨2, ![1024, 2048]⟩

abbrev nBuf : Space → Nat
  | .hbm => 40
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x1, .f32⟩
  | .hbm, ⟨3, _⟩ => ⟨S4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .bf16⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .bf16⟩
  | .hbm, ⟨32, _⟩ => ⟨S_, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S1x4096, .f32⟩
  | .hbm, ⟨38, _⟩ => ⟨S1x4096, .f32⟩
  | .hbm, ⟨39, _⟩ => ⟨S8192x4096, .f32⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S2048x256, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_cst_4 : Ref sig .tc := ⟨.hbm, 24, rfl⟩
abbrev main_call3_v0 : Ref sig .tc := ⟨.hbm, 25, rfl⟩
abbrev main_call3_v1 : Ref sig .tc := ⟨.hbm, 26, rfl⟩
abbrev main_call3_v2 : Ref sig .tc := ⟨.hbm, 27, rfl⟩
abbrev main_call3_v3 : Ref sig .tc := ⟨.hbm, 28, rfl⟩
abbrev main_call3_v4 : Ref sig .tc := ⟨.hbm, 29, rfl⟩
abbrev main_v10 : Ref sig .tc := ⟨.hbm, 30, rfl⟩
abbrev main_v11 : Ref sig .tc := ⟨.hbm, 31, rfl⟩
abbrev main_cst_5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  reducesTo_S8192x4096_S_d0_1 : S8192x4096.ReducesTo [0, 1] S_
  h_S_ : 0 < S_.numel
  bcast_S_S8192x4096 : S_.BroadcastsInDim S8192x4096 (![] : Fin 0 → Fin S8192x4096.rank)
  bitsLt_bf16_f32 : FTy.bits .bf16 < FTy.bits .f32
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  shapeCasts_S4096x1_S4096 : S4096x1.ShapeCasts S4096
  bcast_S_S4096 : S_.BroadcastsInDim S4096 (![] : Fin 0 → Fin S4096.rank)
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x4096.size a
  hwx0_0 : ∀ i : grid0.Coords, EltTy.bits .bf16 = 32 ∨ (Rect.block (s := S8192x4096) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x4096.size a
  hwx0_1 : ∀ i : grid0.Coords, EltTy.bits .bf16 = 32 ∨ (Rect.block (s := S4096x4096) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x4096.size a
  hwx0_4 : ∀ i : grid0.Coords, EltTy.bits .f32 = 32 ∨ (Rect.block (s := S8192x4096) S1024x2048.size (cc0_transform_4 i) (hinb0_4 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_v6) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩
abbrev S1x4096 : Shape := ⟨2, ![1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x1, .f32⟩
  | .hbm, ⟨3, _⟩ => ⟨S4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S8192x4096, .f32⟩
  | .hbm, ⟨31, _⟩ => ⟨S_, .f32⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S1x4096, .f32⟩
  | .hbm, ⟨36, _⟩ => ⟨S8192x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_cst_4 : Ref sig .tc := ⟨.hbm, 23, rfl⟩
abbrev main_call3_v0 : Ref sig .tc := ⟨.hbm, 24, rfl⟩
abbrev main_call3_v1 : Ref sig .tc := ⟨.hbm, 25, rfl⟩
abbrev main_call3_v2 : Ref sig .tc := ⟨.hbm, 26, rfl⟩
abbrev main_call3_v3 : Ref sig .tc := ⟨.hbm, 27, rfl⟩
abbrev main_call3_v4 : Ref sig .tc := ⟨.hbm, 28, rfl⟩
abbrev main_v9 : Ref sig .tc := ⟨.hbm, 29, rfl⟩
abbrev main_v10 : Ref sig .tc := ⟨.hbm, 30, rfl⟩
abbrev main_cst_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩

abbrev nD : Nat := 1
abbrev τ : Topo := Topo.v7x

variable {F : FTy → Type} [FloatOps F]

class Facts₀ : Prop where
  reducesTo_S8192x4096_S_d0_1 : S8192x4096.ReducesTo [0, 1] S_
  h_S_ : 0 < S_.numel
  bcast_S_S8192x4096 : S_.BroadcastsInDim S8192x4096 (![] : Fin 0 → Fin S8192x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  shapeCasts_S4096x1_S1x4096 : S4096x1.ShapeCasts S1x4096
  bcast_S1x4096_S8192x4096_0_1 : S1x4096.BroadcastsInDim S8192x4096 (![0, 1] : Fin 2 → Fin S8192x4096.rank)
  shapeCasts_S4096_S1x4096 : S4096.ShapeCasts S1x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid point's body leaves behind, as values. The body keeps a [1024, 2048] accumulator: at the first
  point of a run of sixteen it stores zeros into it, at every point it adds the product of the point's [1024, 256]
  and [2048, 256] blocks (contracted over their second axes) to what the accumulator held, and at the last point
  of the run it writes accumulator × scale row + bias row into the output block. Each lemma reads the stores of
  one control case back: the accumulator after the case is the accumulate step applied to what it held before
  (to the zero block, in the first case), and the output block after the last case is the rescaling step applied
  to the accumulator that case has just updated.
-/
import proofs.«153219_j86552180949217_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- First point of a run: the accumulator ends at (zero block) + product of the point's blocks. -/
theorem sout_A (c : Dev nD) (i : grid0.Coords) (a3 : Memref sig .tc .vmem S1024x256 .bf16) (h3 : a3.IsWhole) (a4 : Memref sig .tc .vmem S2048x256 .bf16) (h4 : a4.IsWhole) (a5 : Memref sig .tc .vmem S1x2048 .f32) (h5 : a5.IsWhole) (a6 : Memref sig .tc .vmem S1x2048 .f32) (h6 : a6.IsWhole) (a7 : Memref sig .tc .vmem S1024x2048 .f32) (h7 : a7.IsWhole) (a8 : Memref sig .tc .vmem S1024x2048 .f32) (h8 : a8.IsWhole) (hc0 : cond0_0 i) (hc1 : ¬cond0_1 i)
    (x0 : Vec F S1024x256 .bf16) (x1 : Vec F S2048x256 .bf16) (x2 : Vec F S1x2048 .f32) (x3 : Vec F S1x2048 .f32) :
    sout0_A_0 c i a3 h3 a4 h4 a5 h5 a6 h6 a7 h7 a8 h8 hc0 hc1 x0 x1 x2 x3 = k0_pay2 x0 x1 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x2048) hz, View.readCov_unit_zero (S := S1024x2048) _ hz]
  simp only [View.readAt_eq_ld, h3.read_unread, h4.read_unread, h5.read_unread, h6.read_unread, h8.read_unread, View.ld_unit_zero (S := S1024x256) hz, View.ld_unit_zero (S := S2048x256) hz, View.ld_unit_zero (S := S1024x2048) hz, View.ld_unit_zero (S := S1x2048) hz]

/-- A middle point: the accumulator ends at (what it held) + product of the point's blocks. -/
theorem sout_B (c : Dev nD) (i : grid0.Coords) (a3 : Memref sig .tc .vmem S1024x256 .bf16) (h3 : a3.IsWhole) (a4 : Memref sig .tc .vmem S2048x256 .bf16) (h4 : a4.IsWhole) (a5 : Memref sig .tc .vmem S1x2048 .f32) (h5 : a5.IsWhole) (a6 : Memref sig .tc .vmem S1x2048 .f32) (h6 : a6.IsWhole) (a7 : Memref sig .tc .vmem S1024x2048 .f32) (h7 : a7.IsWhole) (a8 : Memref sig .tc .vmem S1024x2048 .f32) (h8 : a8.IsWhole) (hc0 : ¬cond0_0 i) (hc1 : ¬cond0_1 i)
    (x0 : Vec F S1024x256 .bf16) (x1 : Vec F S2048x256 .bf16) (x2 : Vec F S1x2048 .f32) (x3 : Vec F S1x2048 .f32) (xs0 : Vec F S1024x2048 .f32) :
    sout0_B_0 c i a3 h3 a4 h4 a5 h5 a6 h6 a7 h7 a8 h8 hc0 hc1 x0 x1 x2 x3 xs0 = k0_pay2 x0 x1 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero hz]
  simp only [View.readAt_eq_ld, h3.read_unread, h4.read_unread, h5.read_unread, h6.read_unread, h8.read_unread, View.ld_unit_zero (S := S1024x256) hz, View.ld_unit_zero (S := S2048x256) hz, View.ld_unit_zero (S := S1024x2048) hz, View.ld_unit_zero (S := S1x2048) hz]

/-- Last point of a run: the accumulator likewise, -/
theorem sout_C (c : Dev nD) (i : grid0.Coords) (a3 : Memref sig .tc .vmem S1024x256 .bf16) (h3 : a3.IsWhole) (a4 : Memref sig .tc .vmem S2048x256 .bf16) (h4 : a4.IsWhole) (a5 : Memref sig .tc .vmem S1x2048 .f32) (h5 : a5.IsWhole) (a6 : Memref sig .tc .vmem S1x2048 .f32) (h6 : a6.IsWhole) (a7 : Memref sig .tc .vmem S1024x2048 .f32) (h7 : a7.IsWhole) (a8 : Memref sig .tc .vmem S1024x2048 .f32) (h8 : a8.IsWhole) (hc0 : ¬cond0_0 i) (hc1 : cond0_1 i)
    (x0 : Vec F S1024x256 .bf16) (x1 : Vec F S2048x256 .bf16) (x2 : Vec F S1x2048 .f32) (x3 : Vec F S1x2048 .f32) (xs0 : Vec F S1024x2048 .f32) :
    sout0_C_0 c i a3 h3 a4 h4 a5 h5 a6 h6 a7 h7 a8 h8 hc0 hc1 x0 x1 x2 x3 xs0 = k0_pay2 x0 x1 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h6.read_unread, h8.read_unread, View.ld_unit_zero (S := S1024x256) hz, View.ld_unit_zero (S := S2048x256) hz, View.ld_unit_zero (S := S1024x2048) hz, View.ld_unit_zero (S := S1x2048) hz]

/-- and the output block is the updated accumulator times the scale row plus the bias row. -/
theorem out_C (c : Dev nD) (i : grid0.Coords) (a3 : Memref sig .tc .vmem S1024x256 .bf16) (h3 : a3.IsWhole) (a4 : Memref sig .tc .vmem S2048x256 .bf16) (h4 : a4.IsWhole) (a5 : Memref sig .tc .vmem S1x2048 .f32) (h5 : a5.IsWhole) (a6 : Memref sig .tc .vmem S1x2048 .f32) (h6 : a6.IsWhole) (a7 : Memref sig .tc .vmem S1024x2048 .f32) (h7 : a7.IsWhole) (a8 : Memref sig .tc .vmem S1024x2048 .f32) (h8 : a8.IsWhole) (hc0 : ¬cond0_0 i) (hc1 : cond0_1 i)
    (x0 : Vec F S1024x256 .bf16) (x1 : Vec F S2048x256 .bf16) (x2 : Vec F S1x2048 .f32) (x3 : Vec F S1x2048 .f32) (xs0 : Vec F S1024x2048 .f32) :
    out0_C_4 c i a3 h3 a4 h4 a5 h5 a6 h6 a7 h7 a8 h8 hc0 hc1 x0 x1 x2 x3 xs0 = k0_pay3 (k0_pay2 x0 x1 xs0) x2 x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz, View.readCov_unit_zero (S := S1024x2048) _ hz]
  simp only [View.readAt_eq_ld, h3.read_unread, h4.read_unread, h5.read_unread, h6.read_unread, h8.read_unread, View.ld_unit_zero (S := S1024x256) hz, View.ld_unit_zero (S := S2048x256) hz, View.ld_unit_zero (S := S1024x2048) hz, View.ld_unit_zero (S := S1x2048) hz]

end Cert.KernelIdeal.Acc
end
-- ==== Proof.Payload.lean ====
/-
  The body's two arithmetic steps read at one entry, over the extended reals.
  The accumulate step at entry (p, q) of the [1024, 2048] block is the old entry plus the sum over the 256
  contracted positions k of (left block)(p, k) · (right block)(q, k): both blocks are contracted along their
  second axis, so the right block enters by its rows. The rescaling step at (p, q) is the accumulator's entry
  times the scale row's entry q plus the bias row's entry q: the two [1, 2048] rows are repeated down the rows.
  The zero block the first point stores reads 0 everywhere.
-/
import proofs.«153219_j86552180949217_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.KernelIdeal.Acc

open Cert.KernelIdeal Cert.KernelIdeal.Gen

/-- The zero block reads 0. -/
theorem pay1_apply (y : S1024x2048.Idx) : k0_pay1 (F := Ideal) y = 0 := by
  unfold k0_pay1
  simp only [shapeCast_self]
  show Ideal.ofBits .f32 0x00000000#32 = 0
  exact Ideal.ofBits_zero_f32

theorem lhs0 (i : S1024x2048.Idx) (q : dot_S1024x256_S2048x256_S1024x2048_1_1_0_0_n_n.contr.Idx) : (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
theorem lhs1 (i : S1024x2048.Idx) (q : dot_S1024x256_S2048x256_S1024x2048_1_1_0_0_n_n.contr.Idx) : (dot_S1024x256_S2048x256_S1024x2048_1_1_0_0_n_n.lhsIdx i q 1).val = (q ⟨0, by decide⟩).val :=
  dot_S1024x256_S2048x256_S1024x2048_1_1_0_0_n_n.lhsIdx_val_of_single rfl i q
theorem rhs0 (i : S1024x2048.Idx) (q : dot_S1024x256_S2048x256_S1024x2048_1_1_0_0_n_n.contr.Idx) : (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
theorem rhs1 (i : S1024x2048.Idx) (q : dot_S1024x256_S2048x256_S1024x2048_1_1_0_0_n_n.contr.Idx) : (dot_S1024x256_S2048x256_S1024x2048_1_1_0_0_n_n.rhsIdx i q 1).val = (q ⟨0, by decide⟩).val :=
  dot_S1024x256_S2048x256_S1024x2048_1_1_0_0_n_n.rhsIdx_val_of_single rfl i q

/-- The block product into a zero accumulator, at an entry: the sum over the contracted axis. -/
theorem blockdot_apply (x0 : FVec Ideal S1024x256 .bf16) (x1 : FVec Ideal S2048x256 .bf16) (p : Fin 1024) (q : Fin 2048) :
    matmul dot_S1024x256_S2048x256_S1024x2048_1_1_0_0_n_n none x0 x1 (constant (F := Ideal) S1024x2048 .f32 0x00000000#32) (ix2 p q)
      = ∑ k : Fin 256, x0 (ix2 p k) * x1 (ix2 q k) := by
  simp only [matmul]
  rw [Ideal.matmul_constant_zero_apply, ← Equiv.sum_comp (contrEquiv1 dot_S1024x256_S2048x256_S1024x2048_1_1_0_0_n_n 256 rfl rfl).symm]
  refine Finset.sum_congr rfl fun k _ => ?_
  have hk := contrEquiv1_symm_val dot_S1024x256_S2048x256_S1024x2048_1_1_0_0_n_n 256 rfl rfl k
  have el : dot_S1024x256_S2048x256_S1024x2048_1_1_0_0_n_n.lhsIdx (ix2 p q) ((contrEquiv1 dot_S1024x256_S2048x256_S1024x2048_1_1_0_0_n_n 256 rfl rfl).symm k) = ix2 p k := funext fun a => Fin.ext (by
    match a with
    | ⟨0, _⟩ => exact lhs0 _ _
    | ⟨1, _⟩ => exact (lhs1 _ _).trans hk)
  have er : dot_S1024x256_S2048x256_S1024x2048_1_1_0_0_n_n.rhsIdx (ix2 p q) ((contrEquiv1 dot_S1024x256_S2048x256_S1024x2048_1_1_0_0_n_n 256 rfl rfl).symm k) = ix2 q k := funext fun a => Fin.ext (by
    match a with
    | ⟨0, _⟩ => exact rhs0 _ _
    | ⟨1, _⟩ => exact (rhs1 _ _).trans hk)
  rw [el, er]

/-- The accumulate step at an entry. -/
theorem pay2_apply (x0 : Vec Ideal S1024x256 .bf16) (x1 : Vec Ideal S2048x256 .bf16) (acc : Vec Ideal S1024x2048 .f32)
    (p : Fin 1024) (q : Fin 2048) :
    k0_pay2 x0 x1 acc (ix2 p q) = acc (ix2 p q) + ∑ k : Fin 256, x0 (ix2 p k) * x1 (ix2 q k) := by
  unfold k0_pay2
  simp only [shapeCast_self]
  rw [addf_apply, blockdot_apply]

/-- The rescaling step at an entry. -/
theorem pay3_apply (acc : Vec Ideal S1024x2048 .f32) (s b : Vec Ideal S1x2048 .f32) (p : Fin 1024) (q : Fin 2048) :
    k0_pay3 acc s b (ix2 p q) = acc (ix2 p q) * s (ix2 (0 : Fin 1) q) + b (ix2 (0 : Fin 1) q) := by
  unfold k0_pay3
  simp only [shapeCast_self]
  rw [addf_apply, mulf_apply, broadcastTo_1b_ab_apply, broadcastTo_1b_ab_apply]

end Cert.KernelIdeal.Acc
end
-- ==== Proof.BlockedSum.lean ====
/-
  A sum over a contracted axis of length `B * n`, taken block by block: the sum over all of `Fin (B * n)`
  is the sum over the `B` blocks of each block's sum over its `n` entries, position `j` of block `b` being
  entry `j + n * b`. Addition on the extended reals is commutative and associative (also at the infinities),
  so no finiteness is needed: the statement holds in any commutative additive monoid.
-/
import Mathlib.Data.EReal.Basic
import Mathlib.Algebra.BigOperators.Fin
import Mathlib.Logic.Equiv.Fin.Basic

open Finset

namespace Cert.BlockedSum

/-- Summing over `Fin (B * n)` is summing over the blocks, then inside each block. -/
theorem sum_blocks {M : Type*} [AddCommMonoid M] (B n : Nat) (f : Fin (B * n) → M) :
    ∑ k : Fin (B * n), f k = ∑ b : Fin B, ∑ j : Fin n, f (finProdFinEquiv (b, j)) := by
  rw [← Equiv.sum_comp finProdFinEquiv f, Fintype.sum_prod_type]

/-- The same with the blocks counted by a natural number below `B`: if `g s` is block `s`'s sum, the sum of
    `g` over the first `B` naturals is the whole sum. -/
theorem sum_range_blocks {M : Type*} [AddCommMonoid M] (B n : Nat) (f : Fin (B * n) → M) (g : Nat → M)
    (hg : ∀ s : Fin B, g s.val = ∑ j : Fin n, f (finProdFinEquiv (s, j))) :
    ∑ s ∈ Finset.range B, g s = ∑ k : Fin (B * n), f k := by
  rw [Finset.sum_range, sum_blocks]
  exact Finset.sum_congr rfl fun s _ => hg s

end Cert.BlockedSum
-- ==== Proof.Blocks.lean ====
/-
  The grid has 8 · 2 · 16 points; point t has row-block index t / 32, column-block index t / 16 % 2 and
  contraction-block index t % 16. At point t the kernel sees rows [1024·(t/32), +1024) and contracted positions
  [256·(t%16), +256) of the quantized activations, rows [2048·(t/16%2), +2048) and the same contracted positions
  of the quantized weights, and columns [2048·(t/16%2), +2048) of the scale and bias rows.
  Over the sixteen points of one run (fixed row and column block) the accumulator starts at 0 and gains, at the
  point with contraction block s, the partial product over that block's 256 positions; so after the run's last
  point its entry (p, q) is the whole product over all 4096 contracted positions of row 1024·(t/32) + p of the
  activations with row 2048·(t/16%2) + q of the weights.
-/
import proofs.«153219_j86552180949217_2_alg».proof.Proof.Gen.KernelIdeal.Value
import proofs.«153219_j86552180949217_2_alg».proof.Proof.Pieces
import proofs.«153219_j86552180949217_2_alg».proof.Proof.Payload
import proofs.«153219_j86552180949217_2_alg».proof.Proof.BlockedSum
import Idealize.ShloMosaic.Lib.ValueIdx
import proofs.«153219_j86552180949217_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

open Idealize.ShloMosaic.ValueIdx
namespace Cert.KernelIdeal.Acc

open Cert.KernelIdeal Cert.KernelIdeal.Gen

variable (m : (ℓ : Loc nD τ sig) → Buf (Elt Ideal) ℓ)

/-- The printed index maps in closed form, decided over the grid's 256 points. -/
theorem idx_facts : ∀ t : Fin cfg0.N,
    win0_0.index t (0 : Fin 2) = t.val / 32 ∧ win0_0.index t (1 : Fin 2) = t.val % 16
    ∧ win0_1.index t (0 : Fin 2) = t.val / 16 % 2 ∧ win0_1.index t (1 : Fin 2) = t.val % 16
    ∧ win0_2.index t (0 : Fin 2) = 0 ∧ win0_2.index t (1 : Fin 2) = t.val / 16 % 2
    ∧ win0_3.index t (0 : Fin 2) = 0 ∧ win0_3.index t (1 : Fin 2) = t.val / 16 % 2
    ∧ win0_4.index t (0 : Fin 2) = t.val / 32 ∧ win0_4.index t (1 : Fin 2) = t.val / 16 % 2 :=
  (by decide +kernel : ∀ t : Fin grid0.N, _)

/-- The four arrays the region stages, as the host operations before it left them, read as extended reals: the
    quantized activations [8192, 4096], the quantized weights [4096, 4096], the scale row and the bias row [1, 4096]. -/
abbrev qx (c : Dev nD) : S8192x4096.Idx → EReal := V m c main_v6
abbrev qw (c : Dev nD) : S4096x4096.Idx → EReal := V m c main_v11
abbrev srow (c : Dev nD) : S1x4096.Idx → EReal := V m c main_v16
abbrev brow (c : Dev nD) : S1x4096.Idx → EReal := V m c main_v17
/-- The blocks of them the body is handed at point `t`. -/
abbrev xblk (c : Dev nD) (t : Fin cfg0.N) : S1024x256.Idx → EReal := iblk m c 0 t
abbrev wblk (c : Dev nD) (t : Fin cfg0.N) : S2048x256.Idx → EReal := iblk m c 1 t
abbrev sblk (c : Dev nD) (t : Fin cfg0.N) : S1x2048.Idx → EReal := iblk m c 2 t
abbrev bblk (c : Dev nD) (t : Fin cfg0.N) : S1x2048.Idx → EReal := iblk m c 3 t

/-- The activations' block at point `t`, read at a local entry, is the array at the global entry. -/
theorem iblk0_apply (c : Dev nD) (t : Fin cfg0.N) (y : S1024x256.Idx) (g : S8192x4096.Idx)
    (h0 : (g 0).val = t.val / 32 * 1024 + (y 0).val) (h1 : (g 1).val = t.val % 16 * 256 + (y 1).val) :
    xblk m c t y = qx m c g := by
  obtain ⟨e0, e1, -⟩ := idx_facts t
  show iblk m c 0 t y = V m c main_v6 g
  unfold iblk
  rw [View.read_apply]
  show V m c main_v6 _ = V m c main_v6 g
  congr 1
  funext a
  apply Fin.ext
  match a with
  | ⟨0, _⟩ => show win0_0.index t (0 : Fin 2) * 1024 + 1 * (y 0).val = (g 0).val; rw [e0, h0]; omega
  | ⟨1, _⟩ => show win0_0.index t (1 : Fin 2) * 256 + 1 * (y 1).val = (g 1).val; rw [e1, h1]; omega

/-- The weights' block likewise. -/
theorem iblk1_apply (c : Dev nD) (t : Fin cfg0.N) (y : S2048x256.Idx) (g : S4096x4096.Idx)
    (h0 : (g 0).val = t.val / 16 % 2 * 2048 + (y 0).val) (h1 : (g 1).val = t.val % 16 * 256 + (y 1).val) :
    wblk m c t y = qw m c g := by
  obtain ⟨-, -, e0, e1, -⟩ := idx_facts t
  show iblk m c 1 t y = V m c main_v11 g
  unfold iblk
  rw [View.read_apply]
  show V m c main_v11 _ = V m c main_v11 g
  congr 1
  funext a
  apply Fin.ext
  match a with
  | ⟨0, _⟩ => show win0_1.index t (0 : Fin 2) * 2048 + 1 * (y 0).val = (g 0).val; rw [e0, h0]; omega
  | ⟨1, _⟩ => show win0_1.index t (1 : Fin 2) * 256 + 1 * (y 1).val = (g 1).val; rw [e1, h1]; omega

/-- The scale row's block: columns of the point's column block. -/
theorem iblk2_apply (c : Dev nD) (t : Fin cfg0.N) (y : S1x2048.Idx) (g : S1x4096.Idx)
    (h1 : (g 1).val = t.val / 16 % 2 * 2048 + (y 1).val) :
    sblk m c t y = srow m c g := by
  obtain ⟨-, -, -, -, e0, e1, -⟩ := idx_facts t
  show iblk m c 2 t y = V m c main_v16 g
  unfold iblk
  rw [View.read_apply]
  show V m c main_v16 _ = V m c main_v16 g
  congr 1
  funext a
  apply Fin.ext
  match a with
  | ⟨0, _⟩ => show win0_2.index t (0 : Fin 2) * 1 + 1 * (y 0).val = (g 0).val; rw [e0]; have hy : (y 0).val < 1 := (y 0).isLt; have hg : (g 0).val < 1 := (g 0).isLt; omega
  | ⟨1, _⟩ => show win0_2.index t (1 : Fin 2) * 2048 + 1 * (y 1).val = (g 1).val; rw [e1, h1]; omega

/-- The bias row's block likewise. -/
theorem iblk3_apply (c : Dev nD) (t : Fin cfg0.N) (y : S1x2048.Idx) (g : S1x4096.Idx)
    (h1 : (g 1).val = t.val / 16 % 2 * 2048 + (y 1).val) :
    bblk m c t y = brow m c g := by
  obtain ⟨-, -, -, -, -, -, e0, e1, -⟩ := idx_facts t
  show iblk m c 3 t y = V m c main_v17 g
  unfold iblk
  rw [View.read_apply]
  show V m c main_v17 _ = V m c main_v17 g
  congr 1
  funext a
  apply Fin.ext
  match a with
  | ⟨0, _⟩ => show win0_3.index t (0 : Fin 2) * 1 + 1 * (y 0).val = (g 0).val; rw [e0]; have hy : (y 0).val < 1 := (y 0).isLt; have hg : (g 0).val < 1 := (g 0).isLt; omega
  | ⟨1, _⟩ => show win0_3.index t (1 : Fin 2) * 2048 + 1 * (y 1).val = (g 1).val; rw [e1, h1]; omega

/-- What point `n` adds to the accumulator's entry `y`: the product of the point's two blocks over its 256
    contracted positions (0 for a number that is no point: never used). -/
def addend (c : Dev nD) (n : ℕ) : S1024x2048.Idx → EReal := fun y =>
  if h : n < cfg0.N then ∑ k : Fin 256, xblk m c ⟨n, h⟩ (ix2 (y 0) k) * wblk m c ⟨n, h⟩ (ix2 (y 1) k) else 0

/-- At the first point of a run the accumulator ends at 0 plus the point's addend, whatever it held. -/
theorem scAt_reset (c : Dev nD) (n : ℕ) (h : n < cfg0.N) (h0 : n % 16 = 0) (acc : Vec Ideal S1024x2048 .f32) (y : S1024x2048.Idx) :
    Value.scAt0_0 m c n h acc y = (0 : EReal) + addend m c n y := by
  have hN : n < 256 := lt_of_lt_of_eq h N_0
  have h1 : ¬ n % 16 = 15 := by omega
  obtain ⟨p, q, rfl⟩ : ∃ (p : Fin 1024) (q : Fin 2048), y = ix2 p q := ⟨y 0, y 1, eq_ix2 y⟩
  unfold Value.scAt0_0
  rw [dif_pos h0, dif_neg h1]
  refine (congrFun (sout_A c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N))) (ix2 p q)).trans ?_
  refine (pay2_apply (iblk m c 0 (⟨n, h⟩ : Fin cfg0.N)) (iblk m c 1 (⟨n, h⟩ : Fin cfg0.N)) (k0_pay1 (F := Ideal)) p q).trans ?_
  rw [pay1_apply]
  unfold addend
  rw [dif_pos h]

/-- At every other point it ends at what it held plus the point's addend. -/
theorem scAt_step (c : Dev nD) (n : ℕ) (h : n < cfg0.N) (h0 : ¬ n % 16 = 0) (acc : Vec Ideal S1024x2048 .f32) (y : S1024x2048.Idx) :
    Value.scAt0_0 m c n h acc y = acc y + addend m c n y := by
  obtain ⟨p, q, rfl⟩ : ∃ (p : Fin 1024) (q : Fin 2048), y = ix2 p q := ⟨y 0, y 1, eq_ix2 y⟩
  unfold Value.scAt0_0
  rw [dif_neg h0]
  by_cases h1 : n % 16 = 15
  · rw [dif_pos h1]
    refine (congrFun (sout_C c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc) (ix2 p q)).trans ?_
    refine (pay2_apply (iblk m c 0 (⟨n, h⟩ : Fin cfg0.N)) (iblk m c 1 (⟨n, h⟩ : Fin cfg0.N)) acc p q).trans ?_
    unfold addend
    rw [dif_pos h]
  · rw [dif_neg h1]
    refine (congrFun (sout_B c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc) (ix2 p q)).trans ?_
    refine (pay2_apply (iblk m c 0 (⟨n, h⟩ : Fin cfg0.N)) (iblk m c 1 (⟨n, h⟩ : Fin cfg0.N)) acc p q).trans ?_
    unfold addend
    rw [dif_pos h]

/-- After the last point of a run the accumulator is 0 plus the sixteen addends of the run. -/
theorem acc_at_last (c : Dev nD) (t : Fin cfg0.N) (h15 : t.val % 16 = 15) (y : S1024x2048.Idx) :
    (outsAt0 m c t.val t.isLt).2 y = (0 : EReal) + ∑ s ∈ Finset.range 16, addend m c (16 * (t.val / 16) + s) y := by
  have hN : t.val < 256 := lt_of_lt_of_eq t.isLt N_0
  rw [Value.soutsAt0_0_eq m c t]
  have key := Pipeline.accAt_add_apply (N := cfg0.N) (ι := S1024x2048.Idx) (β := EReal)
    (fun n h => Value.scAt0_0 m c n h (VS0_0.read (Elt Ideal) VS0_0.junk)) (Value.scAt0_0 m c) (fun _ => (0 : EReal)) (addend m c)
    (16 * (t.val / 16)) 15
    (fun h i => scAt_reset m c _ h (by omega) _ i)
    (fun n h acc i hb he => scAt_step m c n h (by omega) acc i)
    (t.val % 16) (by omega)
  rw [key, h15]

/-- A point's addend over the arrays: 256 products at the point's contracted positions. -/
theorem addend_apply (c : Dev nD) (n : ℕ) (h : n < cfg0.N) (p : Fin 1024) (q : Fin 2048) (r : Fin 8192) (o : Fin 4096)
    (kk : Fin 256 → Fin 4096)
    (hr : r.val = n / 32 * 1024 + p.val) (ho : o.val = n / 16 % 2 * 2048 + q.val) (hk : ∀ k, (kk k).val = n % 16 * 256 + k.val) :
    addend m c n (ix2 p q) = ∑ k : Fin 256, qx m c (ix2 r (kk k)) * qw m c (ix2 o (kk k)) := by
  unfold addend
  rw [dif_pos h]
  refine Finset.sum_congr rfl fun k _ => ?_
  rw [iblk0_apply m c ⟨n, h⟩ (ix2 p k) (ix2 r (kk k)) hr (hk k), iblk1_apply m c ⟨n, h⟩ (ix2 q k) (ix2 o (kk k)) ho (hk k)]

/-- After the last point of a run, entry (p, q) of the accumulator is the whole product over the 4096 contracted
    positions of the activations' row and the weights' row the entry belongs to. -/
theorem acc_total (c : Dev nD) (t : Fin cfg0.N) (h15 : t.val % 16 = 15) (p : Fin 1024) (q : Fin 2048) (r : Fin 8192) (o : Fin 4096)
    (hr : r.val = t.val / 32 * 1024 + p.val) (ho : o.val = t.val / 16 % 2 * 2048 + q.val) :
    (outsAt0 m c t.val t.isLt).2 (ix2 p q) = ∑ k : Fin 4096, qx m c (ix2 r k) * qw m c (ix2 o k) := by
  have hN : t.val < 256 := lt_of_lt_of_eq t.isLt N_0
  rw [acc_at_last m c t h15, zero_add]
  refine Cert.BlockedSum.sum_range_blocks 16 256 (fun k : Fin (16 * 256) => qx m c (ix2 r k) * qw m c (ix2 o k)) _ fun s => ?_
  have hs := s.isLt
  exact addend_apply m c (16 * (t.val / 16) + s.val) (lt_of_lt_of_eq (b := 256) (by omega) N_0.symm) p q r o (fun k => finProdFinEquiv (s, k))
    (by omega) (by omega) (fun k => by simp only [finProdFinEquiv_apply_val]; omega)

end Cert.KernelIdeal.Acc
end
-- ==== Proof.Result.lean ====
/-
  The kernel's result array, entry by entry. Only the last point of each run of sixteen writes its output block
  back, and the 16 such points (row block t / 32, column block t / 16 % 2) tile the [8192, 4096] array with
  their [1024, 2048] blocks. What such a point writes at local entry (p, q) is the finished accumulator there —
  the product, over all 4096 contracted positions, of row r = 1024·(t/32) + p of the quantized activations with
  row o = 2048·(t/16%2) + q of the quantized weights — times the scale row's entry o plus the bias row's entry o.
  So the whole array after the run is that one function of (r, o).
-/
import proofs.«153219_j86552180949217_2_alg».proof.Proof.Gen.KernelIdeal.Value
import proofs.«153219_j86552180949217_2_alg».proof.Proof.Pieces
import proofs.«153219_j86552180949217_2_alg».proof.Proof.Payload
import proofs.«153219_j86552180949217_2_alg».proof.Proof.Blocks
import Idealize.ShloMosaic.Lib.ValueIdx
import proofs.«153219_j86552180949217_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

open Idealize.ShloMosaic.ValueIdx
namespace Cert.KernelIdeal.Acc

open Cert.KernelIdeal Cert.KernelIdeal.Gen

variable (m : (ℓ : Loc nD τ sig) → Buf (Elt Ideal) ℓ) (ρ : Dev nD → PrngReg)

/-- Entry (r, o) of the result: (activations' row r · weights' row o) × scale o + bias o. -/
def kresAt (c : Dev nD) (r : Fin 8192) (o : Fin 4096) : EReal :=
  (∑ k : Fin 4096, qx m c (ix2 r k) * qw m c (ix2 o k)) * srow m c (ix2 (0 : Fin 1) o) + brow m c (ix2 (0 : Fin 1) o)

/-- The result array as one function of the staged arrays. -/
def kres (c : Dev nD) : S8192x4096.Idx → EReal := fun i => kresAt m c (i 0) (i 1)

/-- What the last point `t` of a run leaves in the output block at local entry `y` is the result's entry at the
    global position of `y` in `t`'s block. -/
theorem flushed_val (c : Dev nD) (t : Fin cfg0.N) (h0 : ¬ t.val % 16 = 0) (h15 : t.val % 16 = 15) (y : S1024x2048.Idx)
    (r : Fin 8192) (o : Fin 4096) (hr : r.val = t.val / 32 * 1024 + (y 0).val) (ho : o.val = t.val / 16 % 2 * 2048 + (y 1).val) :
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h15) (iblk m c 0 t) (iblk m c 1 t) (iblk m c 2 t) (iblk m c 3 t) (outsAt0 m c (t.val - 1) (Nat.lt_of_le_of_lt (Nat.sub_le _ _) t.isLt)).2 y
      = kresAt m c r o := by
  obtain ⟨p, q, rfl⟩ : ∃ (p : Fin 1024) (q : Fin 2048), y = ix2 p q := ⟨y 0, y 1, eq_ix2 y⟩
  have hacc : (outsAt0 m c t.val t.isLt).2 = k0_pay2 (iblk m c 0 t) (iblk m c 1 t) (outsAt0 m c (t.val - 1) (Nat.lt_of_le_of_lt (Nat.sub_le _ _) t.isLt)).2 := by
    rw [outsAt0_C m c t h0 h15]
    dsimp only
    exact sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h15) (iblk m c 0 t) (iblk m c 1 t) (iblk m c 2 t) (iblk m c 3 t) (outsAt0 m c (t.val - 1) (Nat.lt_of_le_of_lt (Nat.sub_le _ _) t.isLt)).2
  refine (congrFun (out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h15) (iblk m c 0 t) (iblk m c 1 t) (iblk m c 2 t) (iblk m c 3 t) (outsAt0 m c (t.val - 1) (Nat.lt_of_le_of_lt (Nat.sub_le _ _) t.isLt)).2) (ix2 p q)).trans ?_
  refine (pay3_apply (k0_pay2 (iblk m c 0 t) (iblk m c 1 t) (outsAt0 m c (t.val - 1) (Nat.lt_of_le_of_lt (Nat.sub_le _ _) t.isLt)).2) (iblk m c 2 t) (iblk m c 3 t) p q).trans ?_
  rw [← hacc, acc_total m c t h15 p q r o hr ho]
  show _ * sblk m c t (ix2 (0 : Fin 1) q) + bblk m c t (ix2 (0 : Fin 1) q) = _
  rw [iblk2_apply m c t (ix2 (0 : Fin 1) q) (ix2 (0 : Fin 1) o) ho, iblk3_apply m c t (ix2 (0 : Fin 1) q) (ix2 (0 : Fin 1) o) ho]
  rfl

/-- WHAT A FLUSHING POINT WRITES BACK is its block of the result function. -/
theorem flushed_eq (c : Dev nD) (t : Fin cfg0.N) (hf : (cfg0.win 4).flush t = true) :
    (dats m 0 c).flushed 4 t = ((cfg0.win 4).blk t).view.read (Elt Ideal) (kres m c) := by
  have h15 : t.val % 16 = 15 := (flush0_4 t).mp hf
  have h0 : ¬ t.val % 16 = 0 := by omega
  obtain ⟨-, -, -, -, -, -, -, -, e0, e1⟩ := idx_facts t
  rw [Value.flushed4_C m c t h0 h15]
  funext y
  rw [View.read_apply]
  show out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h15) (iblk m c 0 t) (iblk m c 1 t) (iblk m c 2 t) (iblk m c 3 t) (outsAt0 m c (t.val - 1) (Nat.lt_of_le_of_lt (Nat.sub_le _ _) t.isLt)).2 y
    = kresAt m c ((((cfg0.win 4).blk t).view.emb y) 0) ((((cfg0.win 4).blk t).view.emb y) 1)
  exact flushed_val m c t h0 h15 y _ _
    (by show win0_4.index t (0 : Fin 2) * 1024 + 1 * (y 0).val = _; rw [e0]; omega)
    (by show win0_4.index t (1 : Fin 2) * 2048 + 1 * (y 1).val = _; rw [e1]; omega)

/-- Every entry of the array lies in the block of the last point of its run. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨tv, htv⟩ : ∃ tv : ℕ, tv = ((i 0).val / 1024 * 2 + (i 1).val / 2048) * 16 + 15 := ⟨_, rfl⟩
  have hlt : tv < cfg0.N := lt_of_lt_of_eq (b := 256) (by omega) N_0.symm
  obtain ⟨-, -, -, -, -, -, -, -, e0, e1⟩ := idx_facts ⟨tv, hlt⟩
  refine ⟨⟨tv, hlt⟩, (flush0_4 ⟨tv, hlt⟩).mpr (by show tv % 16 = 15; omega), ?_⟩
  show i ∈ ((View.whole main_v18).slice (win0_4.rect ⟨tv, hlt⟩)).set
  rw [View.set_slice_whole, Rect.mem_set_unit]
  intro a
  match a with
  | ⟨0, _⟩ =>
    show win0_4.index ⟨tv, hlt⟩ (0 : Fin 2) * 1024 ≤ (i 0).val ∧ (i 0).val < win0_4.index ⟨tv, hlt⟩ (0 : Fin 2) * 1024 + 1024
    rw [e0]; show tv / 32 * 1024 ≤ (i 0).val ∧ (i 0).val < tv / 32 * 1024 + 1024; omega
  | ⟨1, _⟩ =>
    show win0_4.index ⟨tv, hlt⟩ (1 : Fin 2) * 2048 ≤ (i 1).val ∧ (i 1).val < win0_4.index ⟨tv, hlt⟩ (1 : Fin 2) * 2048 + 2048
    rw [e1]; show tv / 16 % 2 * 2048 ≤ (i 1).val ∧ (i 1).val < tv / 16 % 2 * 2048 + 2048; omega

/-- THE ARRAY after the run is the result function. -/
theorem final (c : Dev nD) : (dats m 0 c).arrAt 4 cfg0.N = kres m c :=
  (dats m 0 c).arrAt_eq_of_cover 4 (kres m c) (flushed_eq m c) cover

/-- The kernel's run, read: the result array at the result function, the arguments unchanged. -/
theorem run : θ_run defs (onTc (τ := τ) (main (F := Ideal))) ⟨m, fun _ => 0, ρ⟩ fun r => ∀ c : Dev nD,
      r.2.mem ((c : Thread nD τ).loc main_v18) = kres m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Acc
end
-- ==== Proof.HostArrays.lean ====
/-
  What the host operations before the region leave in the four arrays the region stages, as terms of the
  program's arguments x [8192, 4096], weight [4096, 4096], qscales [4096, 1], bias [4096]:
  the activations quantized — min(127, max(−128, round(x · (127 / max x)))), then a change of float format, which
  over the extended reals is the identity —; the weights quantized — min(127, max(−128, round(weight / qscales)))
  with qscales repeated along the rows, then the same change of format —; the scale row — (max x / 127) repeated
  4096 times, times qscales read as a vector, laid out as one row —; and the bias laid out as one row.
-/
import proofs.«153219_j86552180949217_2_alg».proof.Proof.Gen.KernelIdeal.Frame
import Idealize.ShloMosaic.Lib.StableHlo.Run
import Idealize.ShloMosaic.PureOps.Ideal
import proofs.«153219_j86552180949217_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable (m : (ℓ : Loc nD τ sig) → Buf (Elt Ideal) ℓ)

set_option maxHeartbeats 2000000 in
/-- The quantized activations. -/
theorem V6_eq (c : Dev nD) :
    V m c main_v6 = truncf (F := Ideal) .bf16 (minimumf (broadcastInDim S8192x4096 ![] bcast_S_S8192x4096 (id (constant S_ .f32 0x42FE0000#32))) (maximumf (broadcastInDim S8192x4096 ![] bcast_S_S8192x4096 (id (constant S_ .f32 0xC3000000#32))) (Host.roundeven (mulf (m ((c : Thread nD τ).loc main_arg0)) (broadcastInDim S8192x4096 ![] bcast_S_S8192x4096 (Host.divf (constant S_ .f32 0x42FE0000#32) (Host.reduce FloatOps.maximumf (m ((c : Thread nD τ).loc main_arg0)) (constant S_ .f32 0xFF800000#32) reducesTo_S8192x4096_S_d0_1 h_S_))))))) bitsLt_bf16_f32 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  simp only [StableHlo.TRef.toBuf, StableHlo.TRef.ofBuf, cast_eq]

set_option maxHeartbeats 2000000 in
/-- The quantized weights. -/
theorem V11_eq (c : Dev nD) :
    V m c main_v11 = truncf (F := Ideal) .bf16 (minimumf (broadcastInDim S4096x4096 ![] bcast_S_S4096x4096 (id (constant S_ .f32 0x42FE0000#32))) (maximumf (broadcastInDim S4096x4096 ![] bcast_S_S4096x4096 (id (constant S_ .f32 0xC3000000#32))) (Host.roundeven (Host.divf (m ((c : Thread nD τ).loc main_arg1)) (broadcastInDim S4096x4096 ![0, 1] bcast_S4096x1_S4096x4096_0_1 (m ((c : Thread nD τ).loc main_arg2))))))) bitsLt_bf16_f32 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  simp only [StableHlo.TRef.toBuf, StableHlo.TRef.ofBuf, cast_eq]

set_option maxHeartbeats 2000000 in
/-- The scale row. -/
theorem V16_eq (c : Dev nD) :
    V m c main_v16 = shapeCast S1x4096 (mulf (F := Ideal) (broadcastInDim S4096 ![] bcast_S_S4096 (Host.divf (Host.reduce FloatOps.maximumf (m ((c : Thread nD τ).loc main_arg0)) (constant S_ .f32 0xFF800000#32) reducesTo_S8192x4096_S_d0_1 h_S_) (constant S_ .f32 0x42FE0000#32))) (shapeCast S4096 (m ((c : Thread nD τ).loc main_arg2)) shapeCasts_S4096x1_S4096)) shapeCasts_S4096_S1x4096 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 2000000 in
/-- The bias row. -/
theorem V17_eq (c : Dev nD) :
    V m c main_v17 = shapeCast S1x4096 (m ((c : Thread nD τ).loc main_arg3)) shapeCasts_S4096_S1x4096 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

end Cert.KernelIdeal.Acc
end
-- ==== Proof.Bridge.lean ====
/-
  The two programs compute one function. The reference rounds and clips the activations and the weights with
  the same operations, in the same order, as the kernel's host prefix (whose extra change of float format is the
  identity over the extended reals), contracts them in ONE product over the 4096 positions, and then multiplies
  by (max x / 127) and by qscales one after the other before adding the bias:
      ((Σₖ xq[r,k] · wq[o,k]) · (max x / 127)) · qscales[o] + bias[o].
  The kernel multiplies the finished accumulator by the precomputed scale row (max x / 127) · qscales[o]:
      (Σₖ xq[r,k] · wq[o,k]) · ((max x / 127) · qscales[o]) + bias[o].
  The two agree by associativity of multiplication, which holds on all of the extended reals (infinities and
  zero included), so the inputs' finiteness is not used.
-/
import proofs.«153219_j86552180949217_2_alg».proof.Proof.Gen.ReferenceIdeal.Read
import proofs.«153219_j86552180949217_2_alg».proof.Proof.HostArrays
import proofs.«153219_j86552180949217_2_alg».proof.Proof.Result
import Idealize.ShloMosaic.Lib.ValueIdx
import Idealize.ShloMosaic.Lib.Pipeline.Value
import proofs.«153219_j86552180949217_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

open Idealize.ShloMosaic.ValueIdx
namespace Cert.KernelIdeal.Acc

open Cert.KernelIdeal Cert.KernelIdeal.Gen

variable (m : (ℓ : Loc nD τ sig) → Buf (Elt Ideal) ℓ)

/-- The kernel's host prefix quantizes the activations by the reference's own operations. -/
theorem x5_bridge (x0 : Vec Ideal S8192x4096 .f32) :
    ((minimumf (broadcastInDim S8192x4096 ![] bcast_S_S8192x4096 (id (constant S_ .f32 0x42FE0000#32))) (maximumf (broadcastInDim S8192x4096 ![] bcast_S_S8192x4096 (id (constant S_ .f32 0xC3000000#32))) (Host.roundeven (mulf x0 (broadcastInDim S8192x4096 ![] bcast_S_S8192x4096 (Host.divf (constant S_ .f32 0x42FE0000#32) (Host.reduce FloatOps.maximumf x0 (constant S_ .f32 0xFF800000#32) reducesTo_S8192x4096_S_d0_1 h_S_))))))) : FVec Ideal S8192x4096 .f32) = Cert.ReferenceIdeal.Read.val_main_v5 (F := Ideal) x0 := rfl

/-- Likewise the weights. -/
theorem w9_bridge (x1 : Vec Ideal S4096x4096 .f32) (x2 : Vec Ideal S4096x1 .f32) :
    ((minimumf (broadcastInDim S4096x4096 ![] bcast_S_S4096x4096 (id (constant S_ .f32 0x42FE0000#32))) (maximumf (broadcastInDim S4096x4096 ![] bcast_S_S4096x4096 (id (constant S_ .f32 0xC3000000#32))) (Host.roundeven (Host.divf x1 (broadcastInDim S4096x4096 ![0, 1] bcast_S4096x1_S4096x4096_0_1 x2))))) : FVec Ideal S4096x4096 .f32) = Cert.ReferenceIdeal.Read.val_main_v9 (F := Ideal) x1 x2 := rfl

/-- Likewise max x / 127. -/
theorem c11_bridge (x0 : Vec Ideal S8192x4096 .f32) :
    ((Host.divf (Host.reduce FloatOps.maximumf x0 (constant S_ .f32 0xFF800000#32) reducesTo_S8192x4096_S_d0_1 h_S_) (constant S_ .f32 0x42FE0000#32)) : FVec Ideal S_ .f32) = Cert.ReferenceIdeal.Read.val_main_v11 (F := Ideal) x0 := rfl

/-- The staged activations are the reference's quantized activations. -/
theorem qx_eq (c : Dev nD) : qx m c = Cert.ReferenceIdeal.Read.val_main_v5 (F := Ideal) (m ((c : Thread nD τ).loc main_arg0)) := by
  show V m c main_v6 = _
  rw [V6_eq]
  exact x5_bridge (m ((c : Thread nD τ).loc main_arg0))

/-- The staged weights are the reference's quantized weights. -/
theorem qw_eq (c : Dev nD) : qw m c = Cert.ReferenceIdeal.Read.val_main_v9 (F := Ideal) (m ((c : Thread nD τ).loc main_arg1)) (m ((c : Thread nD τ).loc main_arg2)) := by
  show V m c main_v11 = _
  rw [V11_eq]
  exact w9_bridge (m ((c : Thread nD τ).loc main_arg1)) (m ((c : Thread nD τ).loc main_arg2))

/-- Entry o of the scale row is (max x / 127) · qscales[o]. -/
theorem srow_apply (c : Dev nD) (o : Fin 4096) :
    srow m c (ix2 (0 : Fin 1) o) = Cert.ReferenceIdeal.Read.val_main_v11 (F := Ideal) (m ((c : Thread nD τ).loc main_arg0)) ix0 * (m ((c : Thread nD τ).loc main_arg2)) (ix2 o (0 : Fin 1)) := by
  show V m c main_v16 (ix2 (0 : Fin 1) o) = _
  rw [V16_eq]
  rw [shapeCast_apply _ shapeCasts_S4096_S1x4096 (ix2 (0 : Fin 1) o) (ix1 o)
    (by rewrite [Shape.rowMajor_val_one, Shape.rowMajor_val_two]; show o.val = 0 * 4096 + o.val; omega)]
  rw [mulf_apply]
  rw [broadcastInDim_apply _ bcast_S_S4096 _ (ix1 o) ix0 (fun a => a.elim0)]
  rw [shapeCast_apply _ shapeCasts_S4096x1_S4096 (ix1 o) (ix2 o (0 : Fin 1))
    (by rewrite [Shape.rowMajor_val_two, Shape.rowMajor_val_one]; show o.val * 1 + 0 = o.val; omega)]
  rw [c11_bridge]

/-- Entry o of the bias row is bias[o]. -/
theorem brow_apply (c : Dev nD) (o : Fin 4096) :
    brow m c (ix2 (0 : Fin 1) o) = (m ((c : Thread nD τ).loc main_arg3)) (ix1 o) := by
  show V m c main_v17 (ix2 (0 : Fin 1) o) = _
  rw [V17_eq]
  rw [shapeCast_apply _ shapeCasts_S4096_S1x4096 (ix2 (0 : Fin 1) o) (ix1 o)
    (by rewrite [Shape.rowMajor_val_one, Shape.rowMajor_val_two]; show o.val = 0 * 4096 + o.val; omega)]

/-- THE KERNEL'S RESULT IS THE REFERENCE'S, as functions of the arguments. -/
theorem kres_eq (c : Dev nD) :
    kres m c = Cert.ReferenceIdeal.Read.val_main_v19 (F := Ideal) (m ((c : Thread nD τ).loc main_arg0)) (m ((c : Thread nD τ).loc main_arg1)) (m ((c : Thread nD τ).loc main_arg2)) (m ((c : Thread nD τ).loc main_arg3)) := by
  funext i
  obtain ⟨r, o, rfl⟩ : ∃ (r : Fin 8192) (o : Fin 4096), i = ix2 r o := ⟨i 0, i 1, eq_ix2 i⟩
  rw [Cert.ReferenceIdeal.Read.val_main_v19_apply, Cert.ReferenceIdeal.Read.val_main_v16_apply, Cert.ReferenceIdeal.Read.val_main_v13_apply, Cert.ReferenceIdeal.Read.val_main_v10_apply,
    Cert.ReferenceIdeal.Read.val_main_v12_apply, Cert.ReferenceIdeal.Read.val_main_v15_apply, Cert.ReferenceIdeal.Read.val_main_v14_apply, Cert.ReferenceIdeal.Read.val_main_v18_apply, Cert.ReferenceIdeal.Read.val_main_v17_apply]
  have hl : ∀ k : Fin 4096, Cert.ReferenceIdeal.Read.lidx_main_v10 (ix2 r o) k = ix2 r k := fun k => funext fun a => by
    match a with
    | ⟨0, _⟩ => rfl
    | ⟨1, _⟩ => rfl
  have hr : ∀ k : Fin 4096, Cert.ReferenceIdeal.Read.ridx_main_v10 (ix2 r o) k = ix2 o k := fun k => funext fun a => by
    match a with
    | ⟨0, _⟩ => rfl
    | ⟨1, _⟩ => rfl
  have h12 : Cert.ReferenceIdeal.Read.idx_main_v12 (ix2 r o) = ix0 := funext fun a => a.elim0
  have h14 : Cert.ReferenceIdeal.Read.idx_main_v14 (Cert.ReferenceIdeal.Read.idx_main_v15 (ix2 r o)) = ix2 o (0 : Fin 1) := funext fun a => Fin.ext (by
    match a with
    | ⟨0, _⟩ => show (0 * 4096 + o.val) / 1 = o.val; omega
    | ⟨1, _⟩ => rfl)
  have h17 : Cert.ReferenceIdeal.Read.idx_main_v17 (Cert.ReferenceIdeal.Read.idx_main_v18 (ix2 r o)) = ix1 o := funext fun a => Fin.ext (by
    match a with
    | ⟨0, _⟩ => show 0 * 4096 + o.val = o.val; omega)
  simp only [hl, hr, h12, h14, h17]
  show kresAt m c r o = _
  unfold kresAt
  rw [srow_apply, brow_apply, qx_eq, qw_eq]
  show _ * (_ * _) + _ = (_ * _) * _ + _
  rw [mul_assoc]

end Cert.KernelIdeal.Acc
end
-- ==== Proof.lean ====
/-
  An int8-style quantized linear layer: out[r, o] = (Σₖ xq[r, k] · wq[o, k]) · (max x / 127) · qscales[o] + bias[o],
  where xq = clip(round(x · 127 / max x)) and wq = clip(round(weight / qscales)), over x [8192, 4096],
  weight [4096, 4096], qscales [4096, 1], bias [4096].

  The kernel tiles the product over a grid of 8 · 2 · 16 points: for each [1024, 2048] output block it zeroes an
  accumulator, adds the partial products of sixteen 256-wide slices of the contracted axis, and at the sixteenth
  multiplies by the precomputed row (max x / 127) · qscales and adds the bias row. The reference contracts all 4096
  positions at once and multiplies by max x / 127 and by qscales one after the other.

  Over the extended reals the two agree because a sum may be taken block by block (addition is commutative and
  associative there, infinities included) and because multiplication is associative; neither law needs the inputs
  to be finite, so the precondition is not opened. The changes of float format are the identity there.

  Frames: the two kernel programs' frames are the generated ones; the reference's is its generated run with the
  result dropped. The idealization rewrote nothing, so its conjunct is trivial.
-/
import proofs.«153219_j86552180949217_2_alg».proof.Defs
import proofs.«153219_j86552180949217_2_alg».proof.Proof.Gen.Kernel
import proofs.«153219_j86552180949217_2_alg».proof.Proof.Gen.Kernel.Skeleton
import proofs.«153219_j86552180949217_2_alg».proof.Proof.Gen.Kernel.Launch
import proofs.«153219_j86552180949217_2_alg».proof.Proof.Gen.Kernel.Points
import proofs.«153219_j86552180949217_2_alg».proof.Proof.Gen.Kernel.Frame
import proofs.«153219_j86552180949217_2_alg».proof.Proof.Gen.KernelIdeal
import proofs.«153219_j86552180949217_2_alg».proof.Proof.Gen.KernelIdeal.Skeleton
import proofs.«153219_j86552180949217_2_alg».proof.Proof.Gen.KernelIdeal.Launch
import proofs.«153219_j86552180949217_2_alg».proof.Proof.Gen.KernelIdeal.Points
import proofs.«153219_j86552180949217_2_alg».proof.Proof.Gen.KernelIdeal.Frame
import proofs.«153219_j86552180949217_2_alg».proof.Proof.Gen.ReferenceIdeal
import proofs.«153219_j86552180949217_2_alg».proof.Proof.Gen.KernelIdeal.Value
import proofs.«153219_j86552180949217_2_alg».proof.Proof.Gen.ReferenceIdeal.Run
import proofs.«153219_j86552180949217_2_alg».proof.Proof.Gen.ReferenceIdeal.Read
import proofs.«153219_j86552180949217_2_alg».proof.Proof.Gen.Pre_finite_inputs
import proofs.«153219_j86552180949217_2_alg».proof.Proof.Result
import proofs.«153219_j86552180949217_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same function of arguments that agree: the kernel's result array is the blockwise
    accumulated product rescaled by the precomputed row, the reference's the whole product rescaled in two steps. -/
theorem algebraic : Cert.algebraic_KernelIdeal_ReferenceIdeal := by
  intro m ρ m' ρ' _ hagree
  refine ⟨fun c => Cert.KernelIdeal.Acc.kres m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2]
  exact (Cert.KernelIdeal.Acc.kres_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
